-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  main_v3
-- ==== Kernel.lean ====
abbrev S2000000x3 : Shape := ⟨2, ![2000000, 3]⟩
abbrev S2000000x60 : Shape := ⟨2, ![2000000, 60]⟩
abbrev S10000x3 : Shape := ⟨2, ![10000, 3]⟩
abbrev S10000x60 : Shape := ⟨2, ![10000, 60]⟩
abbrev S1x10 : Shape := ⟨2, ![1, 10]⟩
abbrev S10000x1 : Shape := ⟨2, ![10000, 1]⟩
abbrev S10000x10 : Shape := ⟨2, ![10000, 10]⟩

abbrev nBuf : Space → Nat
  | .hbm => 2
  | .vmem => 4
  | .smem => 0
  | _ => 0

abbrev bufTy : (tb : Table) → Fin (tcTables nBuf tb) → BufTy
  | .hbm, ⟨0, _⟩ => ⟨S2000000x3, .f32⟩
  | .hbm, ⟨1, _⟩ => ⟨S2000000x60, .f32⟩
  | .local _ .vmem, ⟨0, _⟩ => ⟨S10000x3, .f32⟩
  | .local _ .vmem, ⟨1, _⟩ => ⟨S10000x3, .f32⟩
  | .local _ .vmem, ⟨2, _⟩ => ⟨S10000x60, .f32⟩
  | .local _ .vmem, ⟨3, _⟩ => ⟨S10000x60, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S1x10_d1_w32 : S1x10.Iotas .tc 32 [1]
  inb_S10000x3_S10000x1_0_0 : ∀ a, (![0, 0] : Fin 2 → Nat) a + S10000x1.size a ≤ S10000x3.size a
  h_S10000x1 : 0 < S10000x1.numel
  broadcasts_S10000x1_S10000x10 : S10000x1.Broadcasts S10000x10
  broadcasts_S1x10_S10000x10 : S1x10.Broadcasts S10000x10
  inb_S10000x60_S10000x10_0_0 : ∀ a, (![0, 0] : Fin 2 → Nat) a + S10000x10.size a ≤ S10000x60.size a
  h_S10000x10 : 0 < S10000x10.numel
  inb_S10000x60_S10000x10_0_10 : ∀ a, (![0, 10] : Fin 2 → Nat) a + S10000x10.size a ≤ S10000x60.size a
  inb_S10000x3_S10000x1_0_1 : ∀ a, (![0, 1] : Fin 2 → Nat) a + S10000x1.size a ≤ S10000x3.size a
  inb_S10000x60_S10000x10_0_20 : ∀ a, (![0, 20] : Fin 2 → Nat) a + S10000x10.size a ≤ S10000x60.size a
  inb_S10000x60_S10000x10_0_30 : ∀ a, (![0, 30] : Fin 2 → Nat) a + S10000x10.size a ≤ S10000x60.size a
  inb_S10000x3_S10000x1_0_2 : ∀ a, (![0, 2] : Fin 2 → Nat) a + S10000x1.size a ≤ S10000x3.size a
  inb_S10000x60_S10000x10_0_40 : ∀ a, (![0, 40] : Fin 2 → Nat) a + S10000x10.size a ≤ S10000x60.size a
  inb_S10000x60_S10000x10_0_50 : ∀ a, (![0, 50] : Fin 2 → Nat) a + S10000x10.size a ≤ S10000x60.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S2000000x3.size a
  hwx0_0 : ∀ i : grid0.Coords, EltTy.bits .f32 = 32 ∨ (Rect.block (s := S2000000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x60.size a ≤ S2000000x60.size a
  hwx0_1 : ∀ i : grid0.Coords, EltTy.bits .f32 = 32 ∨ (Rect.block (s := S2000000x60) S10000x60.size (cc0_transform_1 i) (hinb0_1 i)).WholeWords (EltTy.packing .f32)

variable [Facts₀]

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x60.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S10 : Shape := ⟨1, ![10]⟩
abbrev S2000000x3x1 : Shape := ⟨3, ![2000000, 3, 1]⟩
abbrev S1x1x10 : Shape := ⟨3, ![1, 1, 10]⟩
abbrev S2000000x3x10 : Shape := ⟨3, ![2000000, 3, 10]⟩
abbrev S2000000x3x1x10 : Shape := ⟨4, ![2000000, 3, 1, 10]⟩
abbrev S2000000x3x2x10 : Shape := ⟨4, ![2000000, 3, 2, 10]⟩
abbrev S2000000x60 : Shape := ⟨2, ![2000000, 60]⟩

abbrev nBuf : Space → Nat
  | .hbm => 13
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S10, .f32⟩
  | .hbm, ⟨2, _⟩ => ⟨S2000000x3x1, .f32⟩
  | .hbm, ⟨3, _⟩ => ⟨S1x1x10, .f32⟩
  | .hbm, ⟨4, _⟩ => ⟨S2000000x3x10, .f32⟩
  | .hbm, ⟨5, _⟩ => ⟨S2000000x3x10, .f32⟩
  | .hbm, ⟨6, _⟩ => ⟨S2000000x3x10, .f32⟩
  | .hbm, ⟨7, _⟩ => ⟨S2000000x3x10, .f32⟩
  | .hbm, ⟨8, _⟩ => ⟨S2000000x3x10, .f32⟩
  | .hbm, ⟨9, _⟩ => ⟨S2000000x3x1x10, .f32⟩
  | .hbm, ⟨10, _⟩ => ⟨S2000000x3x1x10, .f32⟩
  | .hbm, ⟨11, _⟩ => ⟨S2000000x3x2x10, .f32⟩
  | .hbm, ⟨12, _⟩ => ⟨S2000000x60, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  bcast_S2000000x3_S2000000x3x1_0_1 : S2000000x3.BroadcastsInDim S2000000x3x1 (![0, 1] : Fin 2 → Fin S2000000x3x1.rank)
  bcast_S10_S1x1x10_2 : S10.BroadcastsInDim S1x1x10 (![2] : Fin 1 → Fin S1x1x10.rank)
  bcast_S2000000x3x1_S2000000x3x10_0_1_2 : S2000000x3x1.BroadcastsInDim S2000000x3x10 (![0, 1, 2] : Fin 3 → Fin S2000000x3x10.rank)
  bcast_S1x1x10_S2000000x3x10_0_1_2 : S1x1x10.BroadcastsInDim S2000000x3x10 (![0, 1, 2] : Fin 3 → Fin S2000000x3x10.rank)
  bcast_S2000000x3x10_S2000000x3x1x10_0_1_3 : S2000000x3x10.BroadcastsInDim S2000000x3x1x10 (![0, 1, 3] : Fin 3 → Fin S2000000x3x1x10.rank)
  concatenates_S2000000x3x1x10_S2000000x3x1x10_S2000000x3x2x10_d2 : Shape.Concatenates [S2000000x3x1x10, S2000000x3x1x10] S2000000x3x2x10 2
  shapeCasts_S2000000x3x2x10_S2000000x60 : S2000000x3x2x10.ShapeCasts S2000000x60

variable [Facts₀]

class Facts : Prop extends Facts₀ where

variable [Facts]
-- ==== Proof.Freq.lean ====
/-
  The ten frequencies of the encoding, 2^0, 2^1, …, 2^9, as extended reals, and the two ways a program may spell
  the d-th of them: the integer 1 shifted left by d places, read as a signed integer and converted exactly; and the
  binary32 word of the float 2^d (sign 0, exponent field 127 + d, fraction 0). Both denote the real number 2^d.
-/
import Idealize.ShloMosaic.PureOps.Ideal

noncomputable section

namespace Cert.Fourier

open Idealize.ShloMosaic

/-- The `d`-th frequency, `2^d`. -/
def freq (d : Fin 10) : EReal := (((2 : ℝ) ^ d.val : ℝ) : EReal)

/-- The 32-bit integer `1` shifted left by `d < 10` places is the integer `2^d`: the shift stays far below the
    sign bit. -/
theorem shl_one_toInt : ∀ d : Fin 10, (IntOp.shli .vector 1#32 (BitVec.ofNat 32 d.val)).toInt = (2 : ℤ) ^ d.val := by
  decide

/-- That integer converted to a float is, exactly, the frequency. -/
theorem shift_freq (d : Fin 10) :
    FloatOps.sitofp (F := Ideal) .f32 (IntOp.shli .vector 1#32 (BitVec.ofNat 32 d.val)) = freq d := by
  show (((IntOp.shli .vector 1#32 (BitVec.ofNat 32 d.val)).toInt : ℝ) : EReal) = _
  rw [shl_one_toInt d]
  unfold freq
  push_cast
  rfl

/-- The binary32 words of the floats 1, 2, 4, …, 512. -/
def word : Fin 10 → BitVec 32
  | 0 => 0x3F800000#32 | 1 => 0x40000000#32 | 2 => 0x40800000#32 | 3 => 0x41000000#32 | 4 => 0x41800000#32
  | 5 => 0x42000000#32 | 6 => 0x42800000#32 | 7 => 0x43000000#32 | 8 => 0x43800000#32 | 9 => 0x44000000#32

/-- Each word denotes its power of two: a normal number with fraction 0 and exponent field `127 + d` is
    `2^23 · 2^(d - 23)`. -/
theorem word_freq : ∀ d : Fin 10, Ideal.ofBits .f32 (word d) = freq d := by
  intro d
  fin_cases d <;> simp [word, freq, Ideal.ofBits, Ideal.ieee, -EReal.coe_mul] <;> norm_num <;> norm_cast

end Cert.Fourier

end
-- ==== Proof.Encoding.lean ====
/-
  The positional encoding as ONE function of the input array. Row n of the result holds, for each channel
  c = 0, 1, 2 in turn, the ten sines sin(x[n,c] · 2^d), d = 0 … 9, and then the ten cosines cos(x[n,c] · 2^d):
  sixty columns, column q = 20 c + 10 s + d with s = 0 for a sine and s = 1 for a cosine. So channel, part and
  frequency are read off a column as q / 20, (q / 10) mod 2 and q mod 10. The function is stated for any number of
  rows: the same formula describes the whole array and every block of consecutive rows of it.
-/
import Idealize.ShloMosaic.Lib.ValueIdx
import proofs.«146447_j65077344469353_1_alg».proof.Proof.Freq

noncomputable section

namespace Cert.Fourier

open Idealize.ShloMosaic Idealize.ShloMosaic.ValueIdx

/-- Sine for part `0`, cosine for the other part. -/
def trig (s : Nat) (z : EReal) : EReal := if s = 0 then Ideal.sin z else Ideal.cos z

theorem trig_zero (z : EReal) : trig 0 z = Ideal.sin z := if_pos rfl
theorem trig_one (z : EReal) : trig 1 z = Ideal.cos z := if_neg (by decide)

/-- The entry of row `n` at column `q = 20 c + 10 s + d`: the part-`s` function of `x[n,c] · 2^d`. -/
def entry {R : Nat} (x : (⟨2, ![R, 3]⟩ : Shape).Idx → EReal) (n : Fin R) (q : Nat) (hq : q < 60) : EReal :=
  trig (q / 10 % 2) (x (ix2 n (⟨q / 20, by omega⟩ : Fin 3)) * freq ⟨q % 10, by omega⟩)

/-- The encoding of an array of `R` rows and three channels: `R` rows of sixty columns. -/
def enc {R : Nat} (x : (⟨2, ![R, 3]⟩ : Shape).Idx → EReal) : (⟨2, ![R, 60]⟩ : Shape).Idx → EReal :=
  fun j => entry x (j 0) (j 1).val (idx2_lt1 j)

/-- The entry at a column given by its channel, part and frequency. -/
theorem entry_of_parts {R : Nat} (x : (⟨2, ![R, 3]⟩ : Shape).Idx → EReal) (n : Fin R) (c : Fin 3) (s : Fin 2) (d : Fin 10)
    (q : Nat) (hq : q < 60) (e : q = 20 * c.val + 10 * s.val + d.val) :
    entry x n q hq = trig s.val (x (ix2 n c) * freq d) := by
  subst e
  unfold entry
  have hc : (20 * c.val + 10 * s.val + d.val) / 20 = c.val := by omega
  have hs : (20 * c.val + 10 * s.val + d.val) / 10 % 2 = s.val := by omega
  have hd : (20 * c.val + 10 * s.val + d.val) % 10 = d.val := by omega
  have ec : (⟨(20 * c.val + 10 * s.val + d.val) / 20, by omega⟩ : Fin 3) = c := Fin.ext hc
  have ed : (⟨(20 * c.val + 10 * s.val + d.val) % 10, by omega⟩ : Fin 10) = d := Fin.ext hd
  rw [ec, ed, hs]

/-- The encoding at a position whose row is `n` and whose column is `20 c + 10 s + d`. -/
theorem enc_of_parts {R : Nat} (x : (⟨2, ![R, 3]⟩ : Shape).Idx → EReal) (j : (⟨2, ![R, 60]⟩ : Shape).Idx)
    (n : Fin R) (c : Fin 3) (s : Fin 2) (d : Fin 10)
    (h0 : (j 0).val = n.val) (h1 : (j 1).val = 20 * c.val + 10 * s.val + d.val) :
    enc x j = trig s.val (x (ix2 n c) * freq d) := by
  have e : (j 0 : Fin R) = n := Fin.ext h0
  exact (entry_of_parts x (j 0) c s d (j 1).val (idx2_lt1 j) h1).trans (by rw [e])

end Cert.Fourier

end
-- ==== Proof.Block.lean ====
/-
  What one run of the kernel body leaves in its output block, as the encoding of its input block.

  The body builds the row of frequencies once (the integer 1 shifted left by the column number, converted), and then,
  for each channel c, loads column c of the input block, multiplies it against the frequency row (both broadcast to
  rows × 10), and stores the sine of that product in columns 20c … 20c+9 of the output block and the cosine in columns
  20c+10 … 20c+19. Six stores, each of all rows and ten columns; together they tile the sixty columns. Read at a
  position (p, q) the block therefore holds the part-(q/10 mod 2) function of x[p, q/20] · 2^(q mod 10): the encoding
  of the input block, whichever of the six stores the position falls in.
-/
import proofs.«146447_j65077344469353_1_alg».proof.Proof.Gen.KernelIdeal.Frame
import Idealize.ShloMosaic.Lib.Pipeline.Value
import Idealize.ShloMosaic.Lib.ValueLayout
import proofs.«146447_j65077344469353_1_alg».proof.Proof.Encoding

set_option maxRecDepth 16384

noncomputable section

namespace Cert.Fourier.Body

open Cert.KernelIdeal Cert.KernelIdeal.Gen Idealize.ShloMosaic Idealize.ShloMosaic.ValueIdx Cert.Fourier

/-- The frequency row: at column `d` the integer `1` shifted left by `d`, converted — the frequency `2^d`. -/
theorem freqRow_apply (d : Fin 10) : (k0_pay1 (F := Ideal)) (ix2 (0 : Fin 1) d) = freq d := by
  unfold k0_pay1
  show FloatOps.sitofp (F := Ideal) .f32 (IntOp.shli .vector 1#32 (iota .tc S1x10 32 [1] _ (ix2 (0 : Fin 1) d))) = _
  rw [iota_single_apply]
  exact shift_freq d

/-- The phase: a column of the input block against the frequency row, at row `p` and frequency `d`. -/
theorem phase_apply (v : Vec Ideal S10000x1 .f32) (p : Fin 10000) (d : Fin 10) :
    k0_pay2 v (ix2 p d) = v (ix2 p (0 : Fin 1)) * freq d := by
  unfold k0_pay2
  show broadcastTo S10000x10 v _ (ix2 p d) * broadcastTo S10000x10 (k0_pay1 (F := Ideal)) _ (ix2 p d) = _
  rw [broadcastTo_apply v _ (ix2 p d) (ix2 p (0 : Fin 1)) (fun a => by match a with | ⟨0, _⟩ => rfl | ⟨1, _⟩ => rfl),
    broadcastTo_1b_ab_apply, freqRow_apply]

/-- The sine payload at row `p` and frequency `d`. -/
theorem sin_apply (v : Vec Ideal S10000x1 .f32) (p : Fin 10000) (d : Fin 10) :
    k0_pay3 v (ix2 p d) = trig 0 (v (ix2 p (0 : Fin 1)) * freq d) := by
  unfold k0_pay3
  show Ideal.sin (k0_pay2 v (ix2 p d)) = _
  rw [phase_apply, trig_zero]

/-- The cosine payload at row `p` and frequency `d`. -/
theorem cos_apply (v : Vec Ideal S10000x1 .f32) (p : Fin 10000) (d : Fin 10) :
    k0_pay4 v (ix2 p d) = trig 1 (v (ix2 p (0 : Fin 1)) * freq d) := by
  unfold k0_pay4
  show Ideal.cos (k0_pay2 v (ix2 p d)) = _
  rw [phase_apply, trig_one]

/-- Column `c` of the input block, loaded as a rows × 1 vector, read at row `p`. -/
theorem column_apply (x0 : Vec Ideal S10000x3 .f32) (c : Fin 3) (ci : Nat) (hci : ci = c.val)
    (inb : ∀ a, (![0, ci] : Fin 2 → Nat) a + S10000x1.size a ≤ S10000x3.size a) (p : Fin 10000) :
    View.ld x0 (Rect.unit (s := S10000x3) ![0, ci] S10000x1.size inb) (ix2 p (0 : Fin 1)) = x0 (ix2 p c) := by
  show x0 _ = x0 _
  congr 1
  funext a
  apply Fin.ext
  match a with
  | ⟨0, _⟩ => show 0 + 1 * p.val = p.val; omega
  | ⟨1, _⟩ => show ci + 1 * 0 = c.val; omega

/-- A store of part `s` of channel `c`, through all rows and the ten columns from `20c + 10s`, holds at each of its
    positions the encoding of the input block at the position it lands on. -/
theorem piece_apply (x0 : Vec Ideal S10000x3 .f32) (c : Fin 3) (s : Fin 2) (o : Nat) (ho : o = 20 * c.val + 10 * s.val)
    (inbo : ∀ a, (![0, o] : Fin 2 → Nat) a + S10000x10.size a ≤ S10000x60.size a)
    (pay : FVec Ideal S10000x10 .f32)
    (hpay : ∀ (p : Fin 10000) (d : Fin 10), pay (ix2 p d) = trig s.val (x0 (ix2 p c) * freq d))
    (x : (Rect.unit (s := S10000x60) ![0, o] S10000x10.size inbo).shape.Idx) :
    pay x = enc (R := 10000) x0 ((Rect.unit (s := S10000x60) ![0, o] S10000x10.size inbo).emb x) := by
  obtain ⟨p, d, rfl⟩ : ∃ (p : Fin 10000) (d : Fin 10), x = ix2 p d := ⟨x 0, x 1, eq_ix2 x⟩
  have e0 : (((Rect.unit (s := S10000x60) ![0, o] S10000x10.size inbo).emb (ix2 p d)) 0).val = p.val := by
    show 0 + 1 * p.val = p.val; omega
  have e1 : (((Rect.unit (s := S10000x60) ![0, o] S10000x10.size inbo).emb (ix2 p d)) 1).val = 20 * c.val + 10 * s.val + d.val := by
    show o + 1 * d.val = _; omega
  exact (hpay p d).trans (enc_of_parts (R := 10000) x0 _ p c s d e0 e1).symm

/-- THE BLOCK: what the body leaves in the output block is the encoding of the input block. -/
theorem block_eq (x0 : Vec Ideal S10000x3 .f32) : out0_1 x0 = enc (R := 10000) x0 := by
  funext y
  unfold out0_1
  refine View.canon_apply_of_pieces (Val := Elt Ideal) (S := S10000x60) (e := .f32) (enc (R := 10000) x0) _ ?_ y (cover0_1 _ _ _ _ _ _ y)
  intro pc hpc x
  simp only [List.mem_cons, List.not_mem_nil, or_false] at hpc
  rcases hpc with rfl | rfl | rfl | rfl | rfl | rfl
  · exact piece_apply x0 2 1 50 rfl inb_S10000x60_S10000x10_0_50 _ (fun p d => (cos_apply _ p d).trans (congrArg (fun z => trig 1 (z * freq d)) (column_apply x0 2 2 rfl _ p))) x
  · exact piece_apply x0 2 0 40 rfl inb_S10000x60_S10000x10_0_40 _ (fun p d => (sin_apply _ p d).trans (congrArg (fun z => trig 0 (z * freq d)) (column_apply x0 2 2 rfl _ p))) x
  · exact piece_apply x0 1 1 30 rfl inb_S10000x60_S10000x10_0_30 _ (fun p d => (cos_apply _ p d).trans (congrArg (fun z => trig 1 (z * freq d)) (column_apply x0 1 1 rfl _ p))) x
  · exact piece_apply x0 1 0 20 rfl inb_S10000x60_S10000x10_0_20 _ (fun p d => (sin_apply _ p d).trans (congrArg (fun z => trig 0 (z * freq d)) (column_apply x0 1 1 rfl _ p))) x
  · exact piece_apply x0 0 1 10 rfl inb_S10000x60_S10000x10_0_10 _ (fun p d => (cos_apply _ p d).trans (congrArg (fun z => trig 1 (z * freq d)) (column_apply x0 0 0 rfl _ p))) x
  · exact piece_apply x0 0 0 0 rfl inb_S10000x60_S10000x10_0_0 _ (fun p d => (sin_apply _ p d).trans (congrArg (fun z => trig 0 (z * freq d)) (column_apply x0 0 0 rfl _ p))) x

end Cert.Fourier.Body

end
-- ==== Proof.KernelValue.lean ====
/-
  The kernel's result array is the encoding of its input array.

  The grid has 200 points. Point t is handed rows 10000·t … 10000·t + 9999 of the input, all three columns, and writes
  back the same rows of the result, all sixty columns. The body leaves in the output block the encoding of the input
  block; and because the encoding works row by row, the encoding of a block of consecutive rows is that block of rows
  of the encoding of the whole array. So point t writes back block t of the encoding of the input. The 200 row blocks
  cover every row, hence the result array ends as the encoding of the input array.
-/
import proofs.«146447_j65077344469353_1_alg».proof.Proof.Gen.KernelIdeal.Value
import proofs.«146447_j65077344469353_1_alg».proof.Proof.Block

set_option maxRecDepth 16384

noncomputable section

namespace Cert.Fourier

open Idealize.ShloMosaic Idealize.ShloMosaic.ValueIdx

/-- The encoding works row by row: if the rows of `x0` are the rows `o, o + 1, …` of `X`, then the encoding of `x0` at
    a position is the encoding of `X` at the position `o` rows further down. -/
theorem enc_rows {R R' : Nat} (X : (⟨2, ![R', 3]⟩ : Shape).Idx → EReal) (x0 : (⟨2, ![R, 3]⟩ : Shape).Idx → EReal) (o : Nat)
    (hx : ∀ (p : Fin R) (c : Fin 3) (k : Fin R'), k.val = o + p.val → x0 (ix2 p c) = X (ix2 k c))
    (j : (⟨2, ![R, 60]⟩ : Shape).Idx) (i : (⟨2, ![R', 60]⟩ : Shape).Idx)
    (h0 : (i 0).val = o + (j 0).val) (h1 : (i 1).val = (j 1).val) :
    enc x0 j = enc X i := by
  have hq : (j 1).val < 60 := idx2_lt1 j
  rw [enc_of_parts x0 j ⟨(j 0).val, idx2_lt0 j⟩ ⟨(j 1).val / 20, by omega⟩ ⟨(j 1).val / 10 % 2, by omega⟩ ⟨(j 1).val % 10, by omega⟩
      rfl (by show (j 1).val = 20 * ((j 1).val / 20) + 10 * ((j 1).val / 10 % 2) + (j 1).val % 10; omega),
    enc_of_parts X i ⟨(i 0).val, idx2_lt0 i⟩ ⟨(j 1).val / 20, by omega⟩ ⟨(j 1).val / 10 % 2, by omega⟩ ⟨(j 1).val % 10, by omega⟩
      rfl (by show (i 1).val = 20 * ((j 1).val / 20) + 10 * ((j 1).val / 10 % 2) + (j 1).val % 10; omega),
    hx ⟨(j 0).val, idx2_lt0 j⟩ _ ⟨(i 0).val, idx2_lt0 i⟩ h0]

end Cert.Fourier

namespace Cert.Fourier.Kernel

open Cert.KernelIdeal Cert.KernelIdeal.Gen Idealize.ShloMosaic Idealize.ShloMosaic.TcCoe Idealize.SL.Sem
open Idealize.ShloMosaic.ValueIdx Cert.Fourier
open Idealize.ShloMosaic.Pipeline (Dat)

variable (m : (ℓ : Loc nD τ sig) → Buf (Elt Ideal) ℓ) (ρ : Dev nD → PrngReg)

/-- The index maps, decided over the 200 points: at point `t` both windows sit at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The input block at point `t` is rows `10000 t …` of the input array. -/
theorem iblk_apply (c : Dev nD) (t : Fin cfg0.N) (p : Fin 10000) (ch : Fin 3) (k : Fin 2000000)
    (hk : k.val = t.val * 10000 + p.val) :
    (iblk m c 0 t : Vec Ideal S10000x3 .f32) (ix2 p ch) = (V m c main_arg0 : S2000000x3.Idx → Elt Ideal .f32) (ix2 k ch) := by
  obtain ⟨e0, e1, -, -⟩ := idx_facts t
  unfold iblk
  rw [View.read_apply]
  show V m c main_arg0 _ = V m c main_arg0 _
  congr 1
  funext a
  apply Fin.ext
  match a with
  | ⟨0, _⟩ => show win0_0.index t (0 : Fin 2) * 10000 + 1 * p.val = k.val; rw [e0, hk]; omega
  | ⟨1, _⟩ => show win0_0.index t (1 : Fin 2) * 3 + 1 * ch.val = ch.val; rw [e1]; omega

/-- WHAT POINT `t` WRITES BACK is block `t` of the encoding of the input array. -/
theorem flushed_eq (c : Dev nD) (t : Fin cfg0.N) :
    (dats m 0 c).flushed 1 t
      = ((cfg0.win 1).blk t).view.read (Elt Ideal) (enc (R := 2000000) (V m c main_arg0)) := by
  rw [Cert.KernelIdeal.Value.flushed1, Body.block_eq]
  obtain ⟨-, -, e2, e3⟩ := idx_facts t
  funext j
  show enc (R := 10000) (iblk m c 0 t) j = enc (R := 2000000) (V m c main_arg0) (((cfg0.win 1).blk t).view.emb j)
  refine enc_rows (V m c main_arg0) (iblk m c 0 t) (t.val * 10000) (fun p ch k hk => iblk_apply m c t p ch k hk) j _ ?_ ?_
  · show win0_1.index t (0 : Fin 2) * 10000 + 1 * (j 0).val = t.val * 10000 + (j 0).val; rw [e2]; omega
  · show win0_1.index t (1 : Fin 2) * 60 + 1 * (j 1).val = (j 1).val; rw [e3]; omega

/-- Every position of the result array is in the block of the point its row falls to. -/
theorem cover (i : S2000000x60.Idx) :
    ∃ t : Fin cfg0.N, (cfg0.win 1).flush t = true ∧ i ∈ ((cfg0.win 1).blk t).view.set := by
  have h0 : (i 0).val < 2000000 := (i 0).isLt
  have h1 : (i 1).val < 60 := (i 1).isLt
  have hN : cfg0.N = 200 := N_0
  have ht : (i 0).val / 10000 < cfg0.N := by rw [hN]; omega
  obtain ⟨-, -, e2, e3⟩ := idx_facts ⟨(i 0).val / 10000, ht⟩
  refine ⟨⟨(i 0).val / 10000, ht⟩, flush0_1 _, ?_⟩
  show i ∈ ((View.whole main_v0).slice (win0_1.rect ⟨(i 0).val / 10000, ht⟩)).set
  rw [View.set_slice_whole, Rect.mem_set_unit]
  intro a
  match a with
  | ⟨0, _⟩ =>
    show win0_1.index ⟨(i 0).val / 10000, ht⟩ (0 : Fin 2) * 10000 ≤ (i 0).val
      ∧ (i 0).val < win0_1.index ⟨(i 0).val / 10000, ht⟩ (0 : Fin 2) * 10000 + 10000
    rw [e2]; show (i 0).val / 10000 * 10000 ≤ (i 0).val ∧ (i 0).val < (i 0).val / 10000 * 10000 + 10000; omega
  | ⟨1, _⟩ =>
    show win0_1.index ⟨(i 0).val / 10000, ht⟩ (1 : Fin 2) * 60 ≤ (i 1).val
      ∧ (i 1).val < win0_1.index ⟨(i 0).val / 10000, ht⟩ (1 : Fin 2) * 60 + 60
    rw [e3]; omega

/-- THE RESULT ARRAY after the run is the encoding of the input array. -/
theorem final (c : Dev nD) : (dats m 0 c).arrAt 1 cfg0.N = enc (R := 2000000) (V m c main_arg0) :=
  (dats m 0 c).arrAt_eq_of_cover 1 (enc (R := 2000000) (V m c main_arg0)) (fun t _ => flushed_eq m c t) cover

/-- The kernel's run, read: the result array at the encoding of the input, the input unchanged. -/
theorem run : θ_run defs (onTc (τ := τ) (main (F := Ideal))) ⟨m, fun _ => 0, ρ⟩ fun r => ∀ c : Dev nD,
      r.2.mem ((c : Thread nD τ).loc main_v0) = enc (R := 2000000) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Fourier.Kernel

end
-- ==== Proof.RefRun.lean ====
/-
  The reference program's run, read back. The program is a straight line of twelve array operations: the table of the
  ten frequency words; the input given a trailing unit axis and the table two leading ones; both broadcast to
  rows × 3 × 10; their product (the phases); its sine and its cosine; each given a unit axis in third place; the two
  joined along that axis to rows × 3 × 2 × 10; and that array re-read, in row-major order, as rows × 60. Every weakly
  fair execution of the program terminates, leaves the input as it was, and leaves in the result buffer the
  composition of those twelve operations applied to the input — `result` below.
-/
import proofs.«146447_j65077344469353_1_alg».proof.Proof.Gen.ReferenceIdeal
import Idealize.ShloMosaic.Lib.StableHlo.Run

noncomputable section

namespace Cert.Fourier.Ref

open Cert.ReferenceIdeal Cert.ReferenceIdeal.Gen Idealize.ShloMosaic Idealize.ShloMosaic.TcCoe Idealize.SL.Sem Idealize.ShloMosaic.StableHlo

variable {F : FTy → Type} [FloatOps F]

/-- The table of the ten frequency words, as floats. -/
def table : (⟨S10, .f32⟩ : BufTy).Contents (Elt F) := fun i => FloatOps.ofBits .f32 (lit0 (S10.rowMajor i))

/-- The phases: the input against the table, both broadcast to rows × 3 × 10. -/
def phase (x : (⟨S2000000x3, .f32⟩ : BufTy).Contents (Elt F)) : (⟨S2000000x3x10, .f32⟩ : BufTy).Contents (Elt F) :=
  mulf (broadcastInDim S2000000x3x10 ![0, 1, 2] bcast_S2000000x3x1_S2000000x3x10_0_1_2
      (broadcastInDim S2000000x3x1 ![0, 1] bcast_S2000000x3_S2000000x3x1_0_1 x))
    (broadcastInDim S2000000x3x10 ![0, 1, 2] bcast_S1x1x10_S2000000x3x10_0_1_2
      (broadcastInDim S1x1x10 ![2] bcast_S10_S1x1x10_2 (table (F := F))))

/-- Sines and cosines of the phases, stacked along a new third axis. -/
def stacked (x : (⟨S2000000x3, .f32⟩ : BufTy).Contents (Elt F)) : (⟨S2000000x3x2x10, .f32⟩ : BufTy).Contents (Elt F) :=
  concatenate S2000000x3x2x10 2
    [⟨S2000000x3x1x10, broadcastInDim S2000000x3x1x10 ![0, 1, 3] bcast_S2000000x3x10_S2000000x3x1x10_0_1_3 (Host.sin (phase x))⟩,
     ⟨S2000000x3x1x10, broadcastInDim S2000000x3x1x10 ![0, 1, 3] bcast_S2000000x3x10_S2000000x3x1x10_0_1_3 (Host.cos (phase x))⟩]
    concatenates_S2000000x3x1x10_S2000000x3x1x10_S2000000x3x2x10_d2

/-- The composition of the twelve operations: the stacked array re-read as rows × 60. -/
def result (x : (⟨S2000000x3, .f32⟩ : BufTy).Contents (Elt F)) : (⟨S2000000x60, .f32⟩ : BufTy).Contents (Elt F) :=
  shapeCast S2000000x60 (stacked x) shapeCasts_S2000000x3x2x10_S2000000x60

/-- The program's twelve operations, in order. -/
abbrev ops : List (HloOp τ sig (Elt F)) :=
  [ nullary main_cst (fun i => FloatOps.ofBits .f32 (lit0 (S10.rowMajor i))),
    unary main_arg0 main_v0 (broadcastInDim S2000000x3x1 ![0, 1] bcast_S2000000x3_S2000000x3x1_0_1 : (⟨S2000000x3, .f32⟩ : BufTy).Contents (Elt F) → (⟨S2000000x3x1, .f32⟩ : BufTy).Contents (Elt F)),
    unary main_cst main_v1 (broadcastInDim S1x1x10 ![2] bcast_S10_S1x1x10_2 : (⟨S10, .f32⟩ : BufTy).Contents (Elt F) → (⟨S1x1x10, .f32⟩ : BufTy).Contents (Elt F)),
    unary main_v0 main_v2 (broadcastInDim S2000000x3x10 ![0, 1, 2] bcast_S2000000x3x1_S2000000x3x10_0_1_2 : (⟨S2000000x3x1, .f32⟩ : BufTy).Contents (Elt F) → (⟨S2000000x3x10, .f32⟩ : BufTy).Contents (Elt F)),
    unary main_v1 main_v3 (broadcastInDim S2000000x3x10 ![0, 1, 2] bcast_S1x1x10_S2000000x3x10_0_1_2 : (⟨S1x1x10, .f32⟩ : BufTy).Contents (Elt F) → (⟨S2000000x3x10, .f32⟩ : BufTy).Contents (Elt F)),
    binary main_v2 main_v3 main_v4 (mulf : (⟨S2000000x3x10, .f32⟩ : BufTy).Contents (Elt F) → (⟨S2000000x3x10, .f32⟩ : BufTy).Contents (Elt F) → (⟨S2000000x3x10, .f32⟩ : BufTy).Contents (Elt F)),
    unary main_v4 main_v5 (Host.sin : (⟨S2000000x3x10, .f32⟩ : BufTy).Contents (Elt F) → (⟨S2000000x3x10, .f32⟩ : BufTy).Contents (Elt F)),
    unary main_v4 main_v6 (Host.cos : (⟨S2000000x3x10, .f32⟩ : BufTy).Contents (Elt F) → (⟨S2000000x3x10, .f32⟩ : BufTy).Contents (Elt F)),
    unary main_v5 main_v7 (broadcastInDim S2000000x3x1x10 ![0, 1, 3] bcast_S2000000x3x10_S2000000x3x1x10_0_1_3 : (⟨S2000000x3x10, .f32⟩ : BufTy).Contents (Elt F) → (⟨S2000000x3x1x10, .f32⟩ : BufTy).Contents (Elt F)),
    unary main_v6 main_v8 (broadcastInDim S2000000x3x1x10 ![0, 1, 3] bcast_S2000000x3x10_S2000000x3x1x10_0_1_3 : (⟨S2000000x3x10, .f32⟩ : BufTy).Contents (Elt F) → (⟨S2000000x3x1x10, .f32⟩ : BufTy).Contents (Elt F)),
    binary main_v7 main_v8 main_v9 ((fun a b => concatenate S2000000x3x2x10 2 [⟨S2000000x3x1x10, a⟩, ⟨S2000000x3x1x10, b⟩] concatenates_S2000000x3x1x10_S2000000x3x1x10_S2000000x3x2x10_d2) : (⟨S2000000x3x1x10, .f32⟩ : BufTy).Contents (Elt F) → (⟨S2000000x3x1x10, .f32⟩ : BufTy).Contents (Elt F) → (⟨S2000000x3x2x10, .f32⟩ : BufTy).Contents (Elt F)),
    reshape main_v9 main_v10 rfl shapeCasts_S2000000x3x2x10_S2000000x60 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., unary_bufs_sub .., unary_bufs_sub .., unary_bufs_sub .., binary_bufs_sub .., reshape_bufs_sub ..⟩

/-- On every device, for any float values, from any memory with zero counters: every weakly fair execution of the
    program terminates with the result buffer at `result` of the input and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = result (m ((c.tc : Thread nD τ).loc main_arg0))
      ∧ r.2.mem ((c.tc : Thread nD τ).loc main_arg0) = m ((c.tc : Thread nD τ).loc main_arg0) :=
  (θ_run defs _ _).mono (fun _ h c => ⟨(h c main_v10).trans (by after_results <;> rfl),
      (h c main_arg0).trans (by after_results <;> rfl)⟩)
    (run_seq scopedRefs_eq scopedSems_eq defs main (fun _ => ops) main_eq (fun _ => ops_sub) m ρ)

end Cert.Fourier.Ref

end
-- ==== Proof.RefValue.lean ====
/-
  The reference's result, read index by index, is the encoding of the input.

  Reading the composed operations from the outside in, at row n and column q of the result: the re-reading of the
  rows × 3 × 2 × 10 array as rows × 60 keeps row-major positions, and ((3n + c)·2 + s)·10 + d = 60n + q exactly when
  c = q / 20, s = (q / 10) mod 2, d = q mod 10; the join along the third axis reads its first operand (the sines) at
  s = 0 and its second (the cosines) at s = 1; the unit axes and broadcasts only rename positions; the product at
  (n, c, d) is x[n,c] times the d-th table entry; and the d-th table word is the float 2^d.
-/
import proofs.«146447_j65077344469353_1_alg».proof.Proof.RefRun
import proofs.«146447_j65077344469353_1_alg».proof.Proof.Encoding
import Idealize.ShloMosaic.Lib.Pipeline.Value

noncomputable section

namespace Cert.Fourier.Ref

open Cert.ReferenceIdeal Idealize.ShloMosaic Idealize.ShloMosaic.ValueIdx Cert.Fourier

/-- The program's table is the table of the words of 1, 2, 4, …, 512. -/
theorem lit_word : ∀ d : Fin 10, lit0 d = word d := by decide

/-- The table's `d`-th entry is the frequency `2^d`. -/
theorem table_apply (d : Fin 10) : (table (F := Ideal)) (ix1 d) = freq d := by
  have e : (S10.rowMajor (ix1 d) : Fin 10) = d := Fin.ext (by rw [Shape.rowMajor_val_one])
  show Ideal.ofBits .f32 (lit0 (S10.rowMajor (ix1 d))) = _
  exact (congrArg (fun z : Fin 10 => Ideal.ofBits .f32 (lit0 z)) e).trans
    ((congrArg (Ideal.ofBits .f32) (lit_word d)).trans (word_freq d))

/-- The phase at row `n`, channel `c`, frequency `d`. -/
theorem phase_apply (x : (⟨S2000000x3, .f32⟩ : BufTy).Contents (Elt Ideal)) (n : Fin 2000000) (c : Fin 3) (d : Fin 10) :
    phase (F := Ideal) x (ix3 n c d) = x (ix2 n c) * freq d := by
  unfold phase
  show broadcastInDim S2000000x3x10 ![0, 1, 2] _ (broadcastInDim S2000000x3x1 ![0, 1] _ x) (ix3 n c d)
      * broadcastInDim S2000000x3x10 ![0, 1, 2] _ (broadcastInDim S1x1x10 ![2] _ (table (F := Ideal))) (ix3 n c d) = _
  congr 1
  · exact (broadcastInDim_apply _ _ _ (ix3 n c d) (ix3 n c (0 : Fin 1))
        (fun a => by match a with | ⟨0, _⟩ => rfl | ⟨1, _⟩ => rfl | ⟨2, _⟩ => rfl)).trans
      (broadcastInDim_apply _ _ x (ix3 n c (0 : Fin 1)) (ix2 n c)
        (fun a => by match a with | ⟨0, _⟩ => rfl | ⟨1, _⟩ => rfl))
  · exact ((broadcastInDim_apply _ _ _ (ix3 n c d) (ix3 (0 : Fin 1) (0 : Fin 1) d)
        (fun a => by match a with | ⟨0, _⟩ => rfl | ⟨1, _⟩ => rfl | ⟨2, _⟩ => rfl)).trans
      (broadcastInDim_apply _ _ (table (F := Ideal)) (ix3 (0 : Fin 1) (0 : Fin 1) d) (ix1 d)
        (fun a => by match a with | ⟨0, _⟩ => rfl))).trans (table_apply d)

/-- The stacked array at row `n`, channel `c`, part `s`, frequency `d`. -/
theorem stacked_apply (x : (⟨S2000000x3, .f32⟩ : BufTy).Contents (Elt Ideal)) (n : Fin 2000000) (c : Fin 3) (s : Fin 2) (d : Fin 10) :
    stacked (F := Ideal) x (ix4 n c s d) = trig s.val (x (ix2 n c) * freq d) := by
  unfold stacked
  match s with
  | ⟨0, _⟩ =>
    refine (concatenate_pair_apply_left (t := S2000000x3x2x10) (s₁ := S2000000x3x1x10) (s₂ := S2000000x3x1x10) (2 : Fin 4) _ _ _ (ix4 n c (0 : Fin 2) d) rfl (ix4 n c (0 : Fin 1) d)
      (fun b => by match b with | ⟨0, _⟩ => rfl | ⟨1, _⟩ => rfl | ⟨2, _⟩ => rfl | ⟨3, _⟩ => rfl)).trans ?_
    refine (broadcastInDim_apply _ _ _ (ix4 n c (0 : Fin 1) d) (ix3 n c d)
      (fun a => by match a with | ⟨0, _⟩ => rfl | ⟨1, _⟩ => rfl | ⟨2, _⟩ => rfl)).trans ?_
    show Ideal.sin (phase (F := Ideal) x (ix3 n c d)) = trig 0 _
    rw [phase_apply, trig_zero]
  | ⟨1, _⟩ =>
    refine (concatenate_pair_apply_right (t := S2000000x3x2x10) (s₁ := S2000000x3x1x10) (s₂ := S2000000x3x1x10) (2 : Fin 4) _ _ _ (ix4 n c (1 : Fin 2) d) rfl rfl (ix4 n c (0 : Fin 1) d)
      (fun b hb => by
        match b, hb with
        | ⟨0, _⟩, _ => rfl
        | ⟨1, _⟩, _ => rfl
        | ⟨2, _⟩, hb => exact absurd rfl hb
        | ⟨3, _⟩, _ => rfl) rfl).trans ?_
    refine (broadcastInDim_apply _ _ _ (ix4 n c (0 : Fin 1) d) (ix3 n c d)
      (fun a => by match a with | ⟨0, _⟩ => rfl | ⟨1, _⟩ => rfl | ⟨2, _⟩ => rfl)).trans ?_
    show Ideal.cos (phase (F := Ideal) x (ix3 n c d)) = trig 1 _
    rw [phase_apply, trig_one]

/-- THE REFERENCE'S RESULT is the encoding of its input. -/
theorem result_eq (x : (⟨S2000000x3, .f32⟩ : BufTy).Contents (Elt Ideal)) :
    result (F := Ideal) x = enc (R := 2000000) x := by
  funext j
  unfold result
  have hq : (j 1).val < 60 := idx2_lt1 j
  have hn : (j 0).val < 2000000 := idx2_lt0 j
  refine (shapeCast_apply _ _ j (ix4 (⟨(j 0).val, hn⟩ : Fin 2000000) (⟨(j 1).val / 20, by omega⟩ : Fin 3)
    (⟨(j 1).val / 10 % 2, by omega⟩ : Fin 2) (⟨(j 1).val % 10, by omega⟩ : Fin 10)) ?_).trans ?_
  · rw [Shape.rowMajor_val_four, Shape.rowMajor_val_two]
    show (((j 0).val * 3 + (j 1).val / 20) * 2 + (j 1).val / 10 % 2) * 10 + (j 1).val % 10 = (j 0).val * 60 + (j 1).val
    omega
  · rw [stacked_apply]
    exact (enc_of_parts (R := 2000000) x j ⟨(j 0).val, hn⟩ ⟨(j 1).val / 20, by omega⟩ ⟨(j 1).val / 10 % 2, by omega⟩
      ⟨(j 1).val % 10, by omega⟩ rfl
      (by show (j 1).val = 20 * ((j 1).val / 20) + 10 * ((j 1).val / 10 % 2) + (j 1).val % 10; omega)).symm

end Cert.Fourier.Ref

end
-- ==== Proof.lean ====
/-
  A Fourier positional encoding computed two ways, equal on the extended reals.

  The input is an array x of 2,000,000 rows and 3 channels. The result has 60 columns per row: for each channel c, the
  ten sines sin(x[n,c] · 2^d), d = 0 … 9, followed by the ten cosines cos(x[n,c] · 2^d) — column 20c + 10s + d.

  The kernel walks the rows in 200 blocks of 10,000. In a block it builds the frequencies as the integer 1 shifted left
  by d and converted to a float, multiplies each channel's column against them, and stores the sines and the cosines
  side by side, six stores of ten columns each. The reference multiplies the whole array against a table of the floats
  1, 2, 4, …, 512, takes sine and cosine, stacks the two along a new axis and re-reads rows × 3 × 2 × 10 as rows × 60.

  At exact arithmetic both are one function of x. The shifted integer 2^d and the table's word for 2^d denote the same
  real number; the product x[n,c] · 2^d is taken in the same order on both sides; sine and cosine are the same
  functions on both sides (with the same conventions at the infinities); and the kernel's column 20c + 10s + d is the
  row-major position of (c, s, d) in 3 × 2 × 10. No law of arithmetic beyond these identifications is needed, so the
  equality holds for every extended-real input and the finiteness of the input is not used.

  The three programs' runs: the word-level kernel and its idealization by their generated frame proofs, the reference
  by its run read back operation by operation. The idealization rewrote nothing, so there is nothing to preserve.
-/
import proofs.«146447_j65077344469353_1_alg».proof.Defs
import proofs.«146447_j65077344469353_1_alg».proof.Proof.Gen.Kernel
import proofs.«146447_j65077344469353_1_alg».proof.Proof.Gen.Kernel.Skeleton
import proofs.«146447_j65077344469353_1_alg».proof.Proof.Gen.Kernel.Launch
import proofs.«146447_j65077344469353_1_alg».proof.Proof.Gen.Kernel.Points
import proofs.«146447_j65077344469353_1_alg».proof.Proof.Gen.Kernel.Frame
import proofs.«146447_j65077344469353_1_alg».proof.Proof.Gen.KernelIdeal
import proofs.«146447_j65077344469353_1_alg».proof.Proof.Gen.KernelIdeal.Skeleton
import proofs.«146447_j65077344469353_1_alg».proof.Proof.Gen.KernelIdeal.Launch
import proofs.«146447_j65077344469353_1_alg».proof.Proof.Gen.KernelIdeal.Points
import proofs.«146447_j65077344469353_1_alg».proof.Proof.Gen.KernelIdeal.Frame
import proofs.«146447_j65077344469353_1_alg».proof.Proof.Gen.KernelIdeal.Value
import proofs.«146447_j65077344469353_1_alg».proof.Proof.Gen.ReferenceIdeal
import proofs.«146447_j65077344469353_1_alg».proof.Proof.Gen.Pre_finite_inputs
import proofs.«146447_j65077344469353_1_alg».proof.Proof.KernelValue
import proofs.«146447_j65077344469353_1_alg».proof.Proof.RefValue
import Idealize.ShloMosaic.Adequacy
import Idealize.ShloMosaic.Init

noncomputable section

namespace Cert.Proof

open Idealize.ShloMosaic Idealize.SL.Sem

/-- The word-level kernel runs and leaves its input as it was. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.Fourier.Ref.run (F := Ideal) m ρ)

/-- From inputs that agree, the kernel's result array ends at the encoding of its input and the reference's result at
    the composition of its twelve operations, which index by index is the encoding of the same input. -/
theorem algebraic : Cert.algebraic_KernelIdeal_ReferenceIdeal := by
  intro m ρ m' ρ' _ hagree
  refine ⟨_, Cert.Fourier.Kernel.run m ρ, ?_⟩
  refine (θ_run Cert.ReferenceIdeal.defs _ _).mono (fun _ h c => ⟨(h c).1.trans ?_, (h c).2⟩)
    (Cert.Fourier.Ref.run (F := Ideal) m' ρ')
  rw [hagree c]
  exact Cert.Fourier.Ref.result_eq _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
